-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x2 : Shape := ⟨3, ![64, 100000, 2]⟩
abbrev S64 : Shape := ⟨1, ![64]⟩
abbrev S_ : Shape := ⟨0, ![]⟩

class Facts : Prop where
  bcast_S_S64x100000x2 : S_.BroadcastsInDim S64x100000x2 (![] : Fin 0 → Fin S64x100000x2.rank)
  reducesTo_S64x100000x2_S_d0_1_2 : S64x100000x2.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x100000x2 1) : IVec S_ 1 :=
  let main_c_5 : IVec S_ 1 := constantI S_ 1 1#1
  let main_v17 : IVec S_ 1 := (fun x v => Host.reduce IntOp.andi x v reducesTo_S64x100000x2_S_d0_1_2 h_S_) main_v16 main_c_5
  let main_v18 : IVec S_ 1 := andi main_v13 main_v17
  main_v18

def fn {F : FTy → Type} [FloatOps F] (main_arg0 : FVec F S64x100000x2 .f32) (main_arg1 : FVec F S64x100000x2 .f32) (main_arg2 : FVec F S64 .f32) (main_arg3 : FVec F S64x100000x2 .f32) : IVec S_ 1 :=
  let main_v0 : FVec F S64x100000x2 .f32 := Host.absf main_arg0
  let main_cst : FVec F S_ .f32 := constant S_ .f32 0x7F800000#32
  let main_v1 : FVec F S64x100000x2 .f32 := broadcastInDim S64x100000x2 ![] bcast_S_S64x100000x2 main_cst
  let main_v2 : IVec S64x100000x2 1 := cmpf .olt main_v0 main_v1
  let main_c : IVec S_ 1 := constantI S_ 1 1#1
  let main_v3 : IVec S_ 1 := (fun x v => Host.reduce IntOp.andi x v reducesTo_S64x100000x2_S_d0_1_2 h_S_) main_v2 main_c
  let main_v4 : FVec F S64x100000x2 .f32 := Host.absf main_arg1
  let main_cst_0 : FVec F S_ .f32 := constant S_ .f32 0x7F800000#32
  let main_v5 : FVec F S64x100000x2 .f32 := broadcastInDim S64x100000x2 ![] bcast_S_S64x100000x2 main_cst_0
  let main_v6 : IVec S64x100000x2 1 := cmpf .olt main_v4 main_v5
  let main_c_1 : IVec S_ 1 := constantI S_ 1 1#1
  let main_v7 : IVec S_ 1 := (fun x v => Host.reduce IntOp.andi x v reducesTo_S64x100000x2_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x100000x2 .f32 := Host.absf main_arg3
  let main_cst_4 : FVec F S_ .f32 := constant S_ .f32 0x7F800000#32
  let main_v15 : FVec F S64x100000x2 .f32 := broadcastInDim S64x100000x2 ![] bcast_S_S64x100000x2 main_cst_4
  let main_v16 : IVec S64x100000x2 1 := cmpf .olt main_v14 main_v15
  fn_part1 (F := F) main_v13 main_v16
-- ==== Kernel.lean ====
abbrev S64x100000x2 : Shape := ⟨3, ![64, 100000, 2]⟩
abbrev S64 : Shape := ⟨1, ![64]⟩
abbrev S64x2x100000 : Shape := ⟨3, ![64, 2, 100000]⟩
abbrev S_ : Shape := ⟨0, ![]⟩
abbrev S64x2x102400 : Shape := ⟨3, ![64, 2, 102400]⟩
abbrev S64x1 : Shape := ⟨2, ![64, 1]⟩
abbrev S32x2x2048 : Shape := ⟨3, ![32, 2, 2048]⟩
abbrev S32x1 : Shape := ⟨2, ![32, 1]⟩
abbrev S32x2048 : Shape := ⟨2, ![32, 2048]⟩
abbrev S32 : Shape := ⟨1, ![32]⟩

abbrev nBuf : Space → Nat
  | .hbm => 62
  | .vmem => 10
  | .smem => 0
  | _ => 0

abbrev bufTy : (tb : Table) → Fin (tcTables nBuf tb) → BufTy
  | .hbm, ⟨0, _⟩ => ⟨S64x100000x2, .f32⟩
  | .hbm, ⟨1, _⟩ => ⟨S64x100000x2, .f32⟩
  | .hbm, ⟨2, _⟩ => ⟨S64, .f32⟩
  | .hbm, ⟨3, _⟩ => ⟨S64x100000x2, .f32⟩
  | .hbm, ⟨4, _⟩ => ⟨S64x2x100000, .f32⟩
  | .hbm, ⟨5, _⟩ => ⟨S_, .i32⟩
  | .hbm, ⟨6, _⟩ => ⟨S_, .f32⟩
  | .hbm, ⟨7, _⟩ => ⟨S64x2x102400, .f32⟩
  | .hbm, ⟨8, _⟩ => ⟨S64x2x100000, .f32⟩
  | .hbm, ⟨9, _⟩ => ⟨S_, .i32⟩
  | .hbm, ⟨10, _⟩ => ⟨S_, .f32⟩
  | .hbm, ⟨11, _⟩ => ⟨S64x2x102400, .f32⟩
  | .hbm, ⟨12, _⟩ => ⟨S64x2x100000, .f32⟩
  | .hbm, ⟨13, _⟩ => ⟨S_, .i32⟩
  | .hbm, ⟨14, _⟩ => ⟨S_, .f32⟩
  | .hbm, ⟨15, _⟩ => ⟨S64x2x102400, .f32⟩
  | .hbm, ⟨16, _⟩ => ⟨S64x1, .f32⟩
  | .hbm, ⟨17, _⟩ => ⟨S64x1, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S32x2x2048, .f32⟩
  | .local _ .vmem, ⟨1, _⟩ => ⟨S32x2x2048, .f32⟩
  | .local _ .vmem, ⟨2, _⟩ => ⟨S32x2x2048, .f32⟩
  | .local _ .vmem, ⟨3, _⟩ => ⟨S32x2x2048, .f32⟩
  | .local _ .vmem, ⟨4, _⟩ => ⟨S32x2x2048, .f32⟩
  | .local _ .vmem, ⟨5, _⟩ => ⟨S32x2x2048, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | _, _ => ⟨S64x100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call3_cst : Ref sig .tc := ⟨.hbm, 34, rfl⟩
abbrev main_call3_v0 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call4_cst : Ref sig .tc := ⟨.hbm, 44, rfl⟩
abbrev main_call4_v0 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S64x100000x2_S64x2x100000_0_2_1 : S64x100000x2.Transposes [0, 2, 1] S64x2x100000
  pads_S64x2x100000_S64x2x102400_000_000_024000 : S64x2x100000.Pads (![0, 0, 0] : Fin 3 → Nat) ![0, 0, 2400] ![0, 0, 0] S64x2x102400
  h_S_ : 0 < S_.numel
  inb_S32x1_S32x1_0_0 : ∀ a, (![0, 0] : Fin 2 → Nat) a + S32x1.size a ≤ S32x1.size a
  h_S32x1 : 0 < S32x1.numel
  inb_S32x2x2048_S32x2x2048_0_0_0 : ∀ a, (![0, 0, 0] : Fin 3 → Nat) a + S32x2x2048.size a ≤ S32x2x2048.size a
  h_S32x2x2048 : 0 < S32x2x2048.numel
  shapeCasts_S32x2x2048_S32x2x2048 : S32x2x2048.ShapeCasts S32x2x2048
  reduces_S32x2x2048_S32x2048 : S32x2x2048.Reduces [1] S32x2048
  shapeCasts_S32x1_S32x1 : S32x1.ShapeCasts S32x1
  reduces_S32x2048_S32 : S32x2048.Reduces [1] S32
  shapeCasts_S32_S32x1 : S32.ShapeCasts S32x1
  shapeCasts_S64x1_S64 : S64x1.ShapeCasts S64
  bcast_S_S64 : S_.BroadcastsInDim S64 (![] : Fin 0 → Fin S64.rank)
  reducesTo_S64_S_d0 : S64.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2x2048.size a ≤ S64x2x102400.size a
  hwx0_0 : ∀ i : grid0.Coords, EltTy.bits .f32 = 32 ∨ (Rect.block (s := S64x2x102400) S32x2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2x2048.size a ≤ S64x2x102400.size a
  hwx0_1 : ∀ i : grid0.Coords, EltTy.bits .f32 = 32 ∨ (Rect.block (s := S64x2x102400) S32x2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2x2048.size a ≤ S64x2x102400.size a
  hwx0_2 : ∀ i : grid0.Coords, EltTy.bits .f32 = 32 ∨ (Rect.block (s := S64x2x102400) S32x2x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)

variable [Facts₀]

abbrev win0_0 : Pipeline.Window sig grid0 :=
  Pipeline.Window.ofSpec (Memref.whole main_v1) S32x2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x2x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x100000x2 : Shape := ⟨3, ![64, 100000, 2]⟩
abbrev S64 : Shape := ⟨1, ![64]⟩
abbrev S_ : Shape := ⟨0, ![]⟩
abbrev S64x100000 : Shape := ⟨2, ![64, 100000]⟩

abbrev nBuf : Space → Nat
  | .hbm => 60
  | .vmem => 0
  | .smem => 0
  | _ => 0

abbrev bufTy : (tb : Table) → Fin (tcTables nBuf tb) → BufTy
  | .hbm, ⟨0, _⟩ => ⟨S64x100000x2, .f32⟩
  | .hbm, ⟨1, _⟩ => ⟨S64x100000x2, .f32⟩
  | .hbm, ⟨2, _⟩ => ⟨S64, .f32⟩
  | .hbm, ⟨3, _⟩ => ⟨S64x100000x2, .f32⟩
  | .hbm, ⟨4, _⟩ => ⟨S64x100000x2, .f32⟩
  | .hbm, ⟨5, _⟩ => ⟨S64x100000x2, .f32⟩
  | .hbm, ⟨6, _⟩ => ⟨S_, .f32⟩
  | .hbm, ⟨7, _⟩ => ⟨S64x100000, .f32⟩
  | .hbm, ⟨8, _⟩ => ⟨S64x100000, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x100000x2, .f32⟩
  | .hbm, ⟨18, _⟩ => ⟨S64x100000x2, .f32⟩
  | .hbm, ⟨19, _⟩ => ⟨S_, .f32⟩
  | .hbm, ⟨20, _⟩ => ⟨S64x100000, .f32⟩
  | .hbm, ⟨21, _⟩ => ⟨S64x100000, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S64x100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call2_cst : Ref sig .tc := ⟨.hbm, 32, rfl⟩
abbrev main_call2_v0 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call3_cst : Ref sig .tc := ⟨.hbm, 42, rfl⟩
abbrev main_call3_v0 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩

abbrev nD : Nat := 1
abbrev τ : Topo := Topo.v7x

variable {F : FTy → Type} [FloatOps F]

class Facts₀ : Prop where
  reducesTo_S64x100000x2_S64x100000_d2 : S64x100000x2.ReducesTo [2] S64x100000
  h_S_ : 0 < S_.numel
  reducesTo_S64x100000_S64_d1 : S64x100000.ReducesTo [1] S64
  bcast_S_S64 : S_.BroadcastsInDim S64 (![] : Fin 0 → Fin S64.rank)
  reducesTo_S64_S_d0 : S64.ReducesTo [0] S_

variable [Facts₀]

class Facts : Prop extends Facts₀ where

variable [Facts]
-- ==== Proof.Spec.lean ====
/-
  The quantity both programs compute before their common closing arithmetic.

  Two point sets X, Y of 100000 planar points in each of 64 batches. For a batch b the sum of the Euclidean
  distances between matched points is   distSum X Y b = ∑ₙ √( ∑_c (Y b n c − X b n c)² ).

  One program sums over the 100000 points directly. The other lays each batch out as 50 tiles of 2048 points,
  the points past the 100000th being zero, and adds tile sums one after the other. A zero point pair contributes
  √((0 − 0)² + (0 − 0)²) = 0, so the tiled sum differs from the direct one only by the grouping of the terms and
  by 2400 zeros: addition of extended reals is commutative and associative and 0 is neutral, which is all
  `tiles_sum` uses — no entry needs to be finite.
-/
import Idealize.ShloMosaic.PureOps.Ideal
import Idealize.ShloMosaic.Lib.ValueIdx

noncomputable section

namespace PointDist

open Idealize.ShloMosaic Idealize.ShloMosaic.ValueIdx

/-- A stack of 64 sets of 100000 planar points. -/
abbrev SPts : Shape := ⟨3, ![64, 100000, 2]⟩

/-- The distance between point `n` of `Y` and point `n` of `X` in batch `b`. -/
def dist (X Y : SPts.Idx → EReal) (b : Fin 64) (n : Fin 100000) : EReal :=
  Ideal.sqrt (∑ c : Fin 2, (Y (ix3 b n c) - X (ix3 b n c)) * (Y (ix3 b n c) - X (ix3 b n c)))

/-- The sum of those distances over a batch. -/
def distSum (X Y : SPts.Idx → EReal) (b : Fin 64) : EReal := ∑ n : Fin 100000, dist X Y b n

/-- Coordinate `c` of point `n` of batch `b`, and zero past the last point: the padded layout's entry. -/
def padded (X : SPts.Idx → EReal) (b : Fin 64) (c : Fin 2) (n : ℕ) : EReal :=
  if h : n < 100000 then X (ix3 b ⟨n, h⟩ c) else 0

/-- The distance read off the padded layout. -/
def distP (X Y : SPts.Idx → EReal) (b : Fin 64) (n : ℕ) : EReal :=
  Ideal.sqrt (∑ c : Fin 2, (padded Y b c n - padded X b c n) * (padded Y b c n - padded X b c n))

theorem sqrt_zero : Ideal.sqrt 0 = 0 := by
  have h : Ideal.sqrt ((0 : ℝ) : EReal) = ((Real.sqrt 0 : ℝ) : EReal) := by
    show (if (0 : ℝ) < 0 then (⊥ : EReal) else ((Real.sqrt 0 : ℝ) : EReal)) = _
    rw [if_neg (lt_irrefl _)]
  rw [← EReal.coe_zero, h, Real.sqrt_zero]

theorem distP_lt (X Y : SPts.Idx → EReal) (b : Fin 64) (n : ℕ) (h : n < 100000) :
    distP X Y b n = dist X Y b ⟨n, h⟩ := by
  unfold distP dist padded
  simp only [dif_pos h]

theorem distP_ge (X Y : SPts.Idx → EReal) (b : Fin 64) (n : ℕ) (h : 100000 ≤ n) : distP X Y b n = 0 := by
  unfold distP padded
  simp only [dif_neg (Nat.not_lt.2 h), sub_zero, mul_zero, Finset.sum_const_zero, sqrt_zero]

/-- The sum over one tile of 2048 points. -/
def tileSum (X Y : SPts.Idx → EReal) (b : Fin 64) (j : ℕ) : EReal :=
  ∑ l : Fin 2048, distP X Y b (2048 * j + l.val)

/-- Consecutive tiles of a sequence, summed tile by tile, are the sum of its initial stretch. -/
theorem sum_tiles (g : ℕ → EReal) (k : ℕ) :
    ∑ j ∈ Finset.range k, ∑ l ∈ Finset.range 2048, g (2048 * j + l) = ∑ n ∈ Finset.range (2048 * k), g n := by
  induction k with
  | zero => simp
  | succ k ih =>
    rw [Finset.sum_range_succ, ih, Nat.mul_succ, Finset.sum_range_add]

/-- Fifty tile sums of the padded layout add up to the batch's sum of distances. -/
theorem tiles_sum (X Y : SPts.Idx → EReal) (b : Fin 64) :
    ∑ j ∈ Finset.range 50, tileSum X Y b j = distSum X Y b := by
  unfold tileSum distSum
  have e : ∀ j, ∑ l : Fin 2048, distP X Y b (2048 * j + l.val)
      = ∑ l ∈ Finset.range 2048, distP X Y b (2048 * j + l) := fun j =>
    (Finset.sum_range fun l => distP X Y b (2048 * j + l)).symm
  simp only [e]
  rw [sum_tiles (distP X Y b) 50, show 2048 * 50 = 100000 + 2400 from rfl, Finset.sum_range_add,
    Finset.sum_eq_zero (s := Finset.range 2400) (fun x _ => distP_ge X Y b _ (Nat.le_add_right _ _)), add_zero,
    Finset.sum_range]
  exact Finset.sum_congr rfl fun n _ => distP_lt X Y b n.val n.isLt

end PointDist

end
-- ==== Proof.Tail.lean ====
/-
  The closing arithmetic both programs share. From the two per-batch sums of distances a, b (64 entries each):
  the means scaled to the image, a/100000/1440 and b/100000/1440, their difference d, the shaped value
  ((1 + 5·max(−d, 0))·d + 5·max(d, 0)) / (1 + |d|) per batch, and 1000 times the mean of that over the 64 batches.
  It is kept closed: the two programs apply it to equal arguments, and nothing about it is used.
-/
import Idealize.ShloMosaic.PureOps

noncomputable section

namespace PointDist

open Idealize.ShloMosaic

abbrev SBatch : Shape := ⟨1, ![64]⟩
abbrev SOne : Shape := ⟨0, ![]⟩

variable {F : FTy → Type} [FloatOps F]

theorem hbc : SOne.BroadcastsInDim SBatch (![] : Fin 0 → Fin SBatch.rank) := by decide
theorem hred : SBatch.ReducesTo [0] SOne := by decide
theorem hone : 0 < SOne.numel := by decide

/-- The number with bits `w`, once per batch. -/
def perBatch (w : BitVec 32) : FVec F SBatch .f32 := broadcastInDim SBatch ![] hbc (constant SOne .f32 w)

/-- A batch sum as a mean over the 100000 points, in units of the image's longer side (1440). -/
def scaled (a : FVec F SBatch .f32) : FVec F SBatch .f32 :=
  Host.divf (Host.divf a (perBatch 0x47C35000#32)) (perBatch 0x44B40000#32)

/-- The per-batch value of a difference `d`. -/
def shaped (d : FVec F SBatch .f32) : FVec F SBatch .f32 :=
  Host.divf (addf (mulf (addf (perBatch 0x3F800000#32) (mulf (perBatch 0x40A00000#32) (maximumf (Host.negf d) (perBatch 0x00000000#32)))) d)
      (mulf (perBatch 0x40A00000#32) (maximumf d (perBatch 0x00000000#32))))
    (addf (perBatch 0x3F800000#32) (Host.absf d))

/-- The result from the two batch sums. -/
def closing (a b : FVec F SBatch .f32) : FVec F SOne .f32 :=
  mulf (constant SOne .f32 0x447A0000#32)
    (Host.divf (Host.reduceAdd (shaped (subf (scaled a) (scaled b))) (constant SOne .f32 0x00000000#32) hred hone)
      (constant SOne .f32 0x42800000#32))

end PointDist

end
-- ==== Proof.RefSide.lean ====
/-
  The reference read at an index. Its two per-batch reductions — the square root of the sum over the two coordinates
  of the squared difference, summed over the 100000 points, each host sum starting from the constant zero — are the
  batch's sum of distances `distSum`; everything after them is the common closing arithmetic.
-/
import proofs.«140975_j80900003987883_1_alg».proof.Defs
import proofs.«140975_j80900003987883_1_alg».proof.Proof.Gen.ReferenceIdeal.Read
import proofs.«140975_j80900003987883_1_alg».proof.Proof.Spec
import proofs.«140975_j80900003987883_1_alg».proof.Proof.Tail
import Idealize.ShloMosaic.Lib.ValueIdx
import Idealize.ShloMosaic.PureOps.Ideal.Laws

noncomputable section

namespace Cert.ReferenceIdeal.RefSide

open Cert.ReferenceIdeal Cert.ReferenceIdeal.Read Idealize.ShloMosaic Idealize.ShloMosaic.ValueIdx PointDist

/-- The index the two nested reductions read: batch `b`, point `n`, coordinate `c`. -/
theorem idx_first (b : Fin 64) (n : Fin 100000) (c : Fin 2) :
    idx_main_call0_v1 (idx_main_v2 (ix1 b) n) c = ix3 b n c :=
  funext fun a => Fin.ext (by match a with | ⟨0, _⟩ => rfl | ⟨1, _⟩ => rfl | ⟨2, _⟩ => rfl)

theorem idx_second (b : Fin 64) (n : Fin 100000) (c : Fin 2) :
    idx_main_call1_v1 (idx_main_v9 (ix1 b) n) c = ix3 b n c :=
  funext fun a => Fin.ext (by match a with | ⟨0, _⟩ => rfl | ⟨1, _⟩ => rfl | ⟨2, _⟩ => rfl)

/-- The first batch sum of the reference: the distances between `Y` and `X`. -/
theorem first_sum (X Y : (⟨S64x100000x2, .f32⟩ : BufTy).Contents (Elt Ideal)) :
    val_main_v2 (F := Ideal) X Y = fun i => distSum X Y (i 0) := by
  funext i
  obtain ⟨b, rfl⟩ : ∃ b : Fin 64, i = ix1 b := ⟨i 0, eq_ix1 i⟩
  simp only [val_main_v2_apply, val_main_v1_apply, val_main_call0_v1_apply, val_main_call0_v0_apply, val_main_v0_apply,
    val_main_cst_apply, val_main_call0_cst_apply, Ideal.ofBits_def, Ideal.ofBits_zero_f32, zero_add,
    Ideal.hostUnary_sqrt_def, Ideal.mulf_def, Ideal.subf_def, idx_first]
  rfl

/-- The second batch sum of the reference: the distances between `Z` and `X`. -/
theorem second_sum (X Z : (⟨S64x100000x2, .f32⟩ : BufTy).Contents (Elt Ideal)) :
    val_main_v9 (F := Ideal) X Z = fun i => distSum X Z (i 0) := by
  funext i
  obtain ⟨b, rfl⟩ : ∃ b : Fin 64, i = ix1 b := ⟨i 0, eq_ix1 i⟩
  simp only [val_main_v9_apply, val_main_v8_apply, val_main_call1_v1_apply, val_main_call1_v0_apply, val_main_v7_apply,
    val_main_cst_2_apply, val_main_call1_cst_apply, Ideal.ofBits_def, Ideal.ofBits_zero_f32, zero_add,
    Ideal.hostUnary_sqrt_def, Ideal.mulf_def, Ideal.subf_def, idx_second]
  rfl

/-- The reference's result is the closing arithmetic of its two batch sums. -/
theorem result_closing (X Y Z : (⟨S64x100000x2, .f32⟩ : BufTy).Contents (Elt Ideal)) :
    val_main_v32 (F := Ideal) X Y Z = closing (F := Ideal) (val_main_v2 (F := Ideal) X Y) (val_main_v9 (F := Ideal) X Z) := rfl

/-- So it is the closing arithmetic of the two sums of distances. -/
theorem result_eq (X Y Z : (⟨S64x100000x2, .f32⟩ : BufTy).Contents (Elt Ideal)) :
    val_main_v32 (F := Ideal) X Y Z
      = closing (F := Ideal) (fun i => distSum X Y (i 0)) (fun i => distSum X Z (i 0)) := by
  rw [result_closing, first_sum, second_sum]

end Cert.ReferenceIdeal.RefSide

end
-- ==== Proof.BlockValue.lean ====
/-
  What the region reads. Each point set reaches the kernel transposed to (batch, coordinate, point) and padded with
  2400 zero points, so entry (b, c, n) of the laid-out array is coordinate c of point n of batch b, and zero from point
  100000 on. Grid point t = 50·i + j holds, of each laid-out array, the block of batches 32i … 32i+31 and points
  2048j … 2048j+2047: entry (r, c, l) of the block is entry (32i + r, c, 2048j + l) of the array.
-/
import proofs.«140975_j80900003987883_1_alg».proof.Proof.Gen.KernelIdeal.Frame
import proofs.«140975_j80900003987883_1_alg».proof.Proof.Spec
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic
import Idealize.ShloMosaic.PureOps.Ideal

noncomputable section

namespace Cert.KernelIdeal.BlockValue

open Cert.KernelIdeal Cert.KernelIdeal.Gen Idealize.ShloMosaic Idealize.ShloMosaic.TcCoe Idealize.SL.Sem
open Idealize.ShloMosaic.Tactic Idealize.ShloMosaic.StableHlo Idealize.ShloMosaic.ValueIdx Idealize.ShloMosaic.Pipeline PointDist

variable (m : (ℓ : Loc nD τ sig) → Buf (Elt Ideal) ℓ)

/-- A point set transposed to (batch, coordinate, point) and padded with zero points to 102400. -/
def laidOut (X : S64x100000x2.Idx → Ideal .f32) : S64x2x102400.Idx → Ideal .f32 :=
  pad S64x2x102400 ![0, 0, 0] ![0, 0, 2400] ![0, 0, 0]
    (transpose S64x2x100000 [0, 2, 1] X transposes_S64x100000x2_S64x2x100000_0_2_1)
    (sitofp (F := Ideal) .f32 (constantI S_ 32 0#32)) pads_S64x2x100000_S64x2x102400_000_000_024000 h_S_

/-- Its entry (b, c, n): the coordinate of the point, zero past the last point. -/
theorem laidOut_apply (X : S64x100000x2.Idx → Ideal .f32) (b : Fin 64) (cc : Fin 2) (n : Fin 102400) :
    laidOut X (ix3 b cc n) = padded X b cc n.val := by
  unfold laidOut padded
  by_cases h : n.val < 100000
  · rw [dif_pos h]
    refine (pad_apply_of_inside _ _ _ _ _ _ _ (ix3 b cc n) (ix3 b cc ⟨n.val, h⟩) fun a => ?_).trans
      (transpose_ix3_021_apply X _ b cc ⟨n.val, h⟩)
    match a with
    | ⟨0, _⟩ => show b.val = 0 + b.val * (0 + 1); omega
    | ⟨1, _⟩ => show cc.val = 0 + cc.val * (0 + 1); omega
    | ⟨2, _⟩ => show n.val = 0 + n.val * (0 + 1); omega
  · rw [dif_neg h]
    refine (pad_apply_of_not_inside _ _ _ _ _ _ _ (ix3 b cc n) (2 : Fin 3) ?_).trans sitofp_zero
    show ¬(0 ≤ n.val ∧ (n.val - 0) % (0 + 1) = 0 ∧ (n.val - 0) / (0 + 1) < 100000)
    omega

/-- The three arrays the region stages are the laid-out first, second and fourth argument. -/
theorem V_first (c : Dev nD) :
    (V m c main_v1 : S64x2x102400.Idx → Ideal .f32) = laidOut (m ((c : Thread nD τ).loc main_arg0)) := by
  dsimp only [V, V0]
  simp only [hostOps0, hostOps0_1, hostOps0_2, hostOps0_3, hostOps0_4, hostOps0_5, List.flatten_cons, List.flatten_nil,
    List.append_nil, List.cons_append, List.nil_append]
  after_results
  rfl
theorem V_second (c : Dev nD) :
    (V m c main_v3 : S64x2x102400.Idx → Ideal .f32) = laidOut (m ((c : Thread nD τ).loc main_arg1)) := by
  dsimp only [V, V0]
  simp only [hostOps0, hostOps0_1, hostOps0_2, hostOps0_3, hostOps0_4, hostOps0_5, List.flatten_cons, List.flatten_nil,
    List.append_nil, List.cons_append, List.nil_append]
  after_results
  rfl
theorem V_third (c : Dev nD) :
    (V m c main_v5 : S64x2x102400.Idx → Ideal .f32) = laidOut (m ((c : Thread nD τ).loc main_arg3)) := by
  dsimp only [V, V0]
  simp only [hostOps0, hostOps0_1, hostOps0_2, hostOps0_3, hostOps0_4, hostOps0_5, List.flatten_cons, List.flatten_nil,
    List.append_nil, List.cons_append, List.nil_append]
  after_results
  rfl

/-- Where the blocks sit, decided over the grid: point t = 50·i + j has block index (i, 0, j) in every input array
    and (i, 0) in both columns of sums. -/
theorem idx_in0 : ∀ t : Fin cfg0.N, win0_0.index t (0 : Fin 3) = t.val / 50 ∧ win0_0.index t (1 : Fin 3) = 0 ∧ win0_0.index t (2 : Fin 3) = t.val % 50 :=
  (by decide +kernel : ∀ t : Fin grid0.N, _)
theorem idx_in1 : ∀ t : Fin cfg0.N, win0_1.index t (0 : Fin 3) = t.val / 50 ∧ win0_1.index t (1 : Fin 3) = 0 ∧ win0_1.index t (2 : Fin 3) = t.val % 50 :=
  (by decide +kernel : ∀ t : Fin grid0.N, _)
theorem idx_in2 : ∀ t : Fin cfg0.N, win0_2.index t (0 : Fin 3) = t.val / 50 ∧ win0_2.index t (1 : Fin 3) = 0 ∧ win0_2.index t (2 : Fin 3) = t.val % 50 :=
  (by decide +kernel : ∀ t : Fin grid0.N, _)
theorem idx_out3 : ∀ t : Fin cfg0.N, win0_3.index t (0 : Fin 2) = t.val / 50 ∧ win0_3.index t (1 : Fin 2) = 0 :=
  (by decide +kernel : ∀ t : Fin grid0.N, _)
theorem idx_out4 : ∀ t : Fin cfg0.N, win0_4.index t (0 : Fin 2) = t.val / 50 ∧ win0_4.index t (1 : Fin 2) = 0 :=
  (by decide +kernel : ∀ t : Fin grid0.N, _)

/-- The batch that row `r` of the blocks at point `n` belongs to. -/
def rowOf (n : ℕ) (hn : n < cfg0.N) (r : Fin 32) : Fin 64 :=
  ⟨32 * (n / 50) + r.val, by have hN : cfg0.N = 100 := N_0; have := r.isLt; omega⟩

/-- An input block's entry is the staged array's entry at the block's offset. -/
theorem blk0_read (c : Dev nD) (t : Fin cfg0.N) (r : Fin 32) (cc : Fin 2) (l : Fin 2048) (k : S64x2x102400.Idx)
    (h0 : (k 0).val = 32 * (t.val / 50) + r.val) (h1 : (k 1).val = cc.val) (h2 : (k 2).val = 2048 * (t.val % 50) + l.val) :
    (iblk m c 0 t : Vec Ideal S32x2x2048 .f32) (ix3 r cc l) = V m c main_v1 k := by
  obtain ⟨e0, e1, e2⟩ := idx_in0 t
  unfold iblk
  rw [View.read_apply]
  show V m c main_v1 (((cfg0.win 0).blk t).view.emb (ix3 r cc l)) = V m c main_v1 k
  refine congrArg (V m c main_v1) (funext fun a => Fin.ext ?_)
  match a with
  | ⟨0, _⟩ => show win0_0.index t 0 * 32 + 1 * r.val = (k 0).val; rw [h0, e0]; omega
  | ⟨1, _⟩ => show win0_0.index t 1 * 2 + 1 * cc.val = (k 1).val; rw [h1, e1]; omega
  | ⟨2, _⟩ => show win0_0.index t 2 * 2048 + 1 * l.val = (k 2).val; rw [h2, e2]; omega
theorem blk1_read (c : Dev nD) (t : Fin cfg0.N) (r : Fin 32) (cc : Fin 2) (l : Fin 2048) (k : S64x2x102400.Idx)
    (h0 : (k 0).val = 32 * (t.val / 50) + r.val) (h1 : (k 1).val = cc.val) (h2 : (k 2).val = 2048 * (t.val % 50) + l.val) :
    (iblk m c 1 t : Vec Ideal S32x2x2048 .f32) (ix3 r cc l) = V m c main_v3 k := by
  obtain ⟨e0, e1, e2⟩ := idx_in1 t
  unfold iblk
  rw [View.read_apply]
  show V m c main_v3 (((cfg0.win 1).blk t).view.emb (ix3 r cc l)) = V m c main_v3 k
  refine congrArg (V m c main_v3) (funext fun a => Fin.ext ?_)
  match a with
  | ⟨0, _⟩ => show win0_1.index t 0 * 32 + 1 * r.val = (k 0).val; rw [h0, e0]; omega
  | ⟨1, _⟩ => show win0_1.index t 1 * 2 + 1 * cc.val = (k 1).val; rw [h1, e1]; omega
  | ⟨2, _⟩ => show win0_1.index t 2 * 2048 + 1 * l.val = (k 2).val; rw [h2, e2]; omega
theorem blk2_read (c : Dev nD) (t : Fin cfg0.N) (r : Fin 32) (cc : Fin 2) (l : Fin 2048) (k : S64x2x102400.Idx)
    (h0 : (k 0).val = 32 * (t.val / 50) + r.val) (h1 : (k 1).val = cc.val) (h2 : (k 2).val = 2048 * (t.val % 50) + l.val) :
    (iblk m c 2 t : Vec Ideal S32x2x2048 .f32) (ix3 r cc l) = V m c main_v5 k := by
  obtain ⟨e0, e1, e2⟩ := idx_in2 t
  unfold iblk
  rw [View.read_apply]
  show V m c main_v5 (((cfg0.win 2).blk t).view.emb (ix3 r cc l)) = V m c main_v5 k
  refine congrArg (V m c main_v5) (funext fun a => Fin.ext ?_)
  match a with
  | ⟨0, _⟩ => show win0_2.index t 0 * 32 + 1 * r.val = (k 0).val; rw [h0, e0]; omega
  | ⟨1, _⟩ => show win0_2.index t 1 * 2 + 1 * cc.val = (k 1).val; rw [h1, e1]; omega
  | ⟨2, _⟩ => show win0_2.index t 2 * 2048 + 1 * l.val = (k 2).val; rw [h2, e2]; omega

/-- So an input block's entry is a coordinate of a point of its batch, or zero in the padding. -/
theorem iblk0_apply (c : Dev nD) (t : Fin cfg0.N) (r : Fin 32) (cc : Fin 2) (l : Fin 2048) :
    (iblk m c 0 t : Vec Ideal S32x2x2048 .f32) (ix3 r cc l)
      = padded (m ((c : Thread nD τ).loc main_arg0)) (rowOf t.val t.isLt r) cc (2048 * (t.val % 50) + l.val) := by
  have hN : cfg0.N = 100 := N_0
  have ht : t.val < 100 := lt_of_lt_of_eq t.isLt hN
  have hlt : 2048 * (t.val % 50) + l.val < 102400 := by have := l.isLt; omega
  refine (blk0_read m c t r cc l (ix3 (rowOf t.val t.isLt r) cc ⟨2048 * (t.val % 50) + l.val, hlt⟩) rfl rfl rfl).trans ?_
  rw [V_first, laidOut_apply]
theorem iblk1_apply (c : Dev nD) (t : Fin cfg0.N) (r : Fin 32) (cc : Fin 2) (l : Fin 2048) :
    (iblk m c 1 t : Vec Ideal S32x2x2048 .f32) (ix3 r cc l)
      = padded (m ((c : Thread nD τ).loc main_arg1)) (rowOf t.val t.isLt r) cc (2048 * (t.val % 50) + l.val) := by
  have hN : cfg0.N = 100 := N_0
  have ht : t.val < 100 := lt_of_lt_of_eq t.isLt hN
  have hlt : 2048 * (t.val % 50) + l.val < 102400 := by have := l.isLt; omega
  refine (blk1_read m c t r cc l (ix3 (rowOf t.val t.isLt r) cc ⟨2048 * (t.val % 50) + l.val, hlt⟩) rfl rfl rfl).trans ?_
  rw [V_second, laidOut_apply]
theorem iblk2_apply (c : Dev nD) (t : Fin cfg0.N) (r : Fin 32) (cc : Fin 2) (l : Fin 2048) :
    (iblk m c 2 t : Vec Ideal S32x2x2048 .f32) (ix3 r cc l)
      = padded (m ((c : Thread nD τ).loc main_arg3)) (rowOf t.val t.isLt r) cc (2048 * (t.val % 50) + l.val) := by
  have hN : cfg0.N = 100 := N_0
  have ht : t.val < 100 := lt_of_lt_of_eq t.isLt hN
  have hlt : 2048 * (t.val % 50) + l.val < 102400 := by have := l.isLt; omega
  refine (blk2_read m c t r cc l (ix3 (rowOf t.val t.isLt r) cc ⟨2048 * (t.val % 50) + l.val, hlt⟩) rfl rfl rfl).trans ?_
  rw [V_third, laidOut_apply]

end Cert.KernelIdeal.BlockValue

end
-- ==== Proof.TileValue.lean ====
/-
  What one grid point adds to a row of the running sums, read entry by entry over the extended reals.

  A point holds a block of 32 batches × 2 coordinates × 2048 points of each of the three point sets, and two columns of
  32 running sums. For batch row r the body adds to the running sum the tile's sum of distances
      ∑ₗ √( ∑_c (y r c l − x r c l)² ),
  the inner sum a reduction over the coordinate axis, the outer one over the 2048 lanes; the reset stores a column of zeros.
-/
import proofs.«140975_j80900003987883_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx Idealize.ShloMosaic.Pipeline

/-- The sum along the 2048 lanes of a [32, 2048] array, at row `r`. -/
theorem laneSum_apply (v : FVec Ideal S32x2048 .f32) (h : S32x2048.Reduces [1] S32) (hφ : FKind.Formats .f32)
    (hacc : (0x00000000#32 : BitVec 32) = FKind.add.neutral .f32 hφ) (r : Fin 32) :
    multiReduction .add [1] S32 v 0x00000000#32 h hφ hacc (ix1 r) = ∑ l : Fin 2048, v (ix2 r l) :=
  (Ideal.multiReduction_add_single v 0x00000000#32 h hφ hacc (ix1 r)).trans
    (Finset.sum_congr rfl fun l _ => congrArg v (funext fun a => Fin.ext (by match a with | ⟨0, _⟩ => rfl | ⟨1, _⟩ => rfl)))

/-- The sum along the coordinate axis of a [32, 2, 2048] array, at row `r` and lane `l`. -/
theorem coordSum_apply (v : FVec Ideal S32x2x2048 .f32) (h : S32x2x2048.Reduces [1] S32x2048) (hφ : FKind.Formats .f32)
    (hacc : (0x00000000#32 : BitVec 32) = FKind.add.neutral .f32 hφ) (r : Fin 32) (l : Fin 2048) :
    multiReduction .add [1] S32x2048 v 0x00000000#32 h hφ hacc (ix2 r l) = ∑ c : Fin 2, v (ix3 r c l) :=
  (Ideal.multiReduction_add_single v 0x00000000#32 h hφ hacc (ix2 r l)).trans
    (Finset.sum_congr rfl fun c _ => congrArg v (funext fun a => Fin.ext (by match a with | ⟨0, _⟩ => rfl | ⟨1, _⟩ => rfl | ⟨2, _⟩ => rfl)))

/-- A vector of 32 entries recast as a column reads, at row `r`, entry `r`. -/
theorem column_apply (v : FVec Ideal S32 .f32) (h : S32.ShapeCasts S32x1) (r : Fin 32) :
    shapeCast S32x1 v h (ix2 r 0) = v (ix1 r) :=
  shapeCast_apply v h (ix2 r 0) (ix1 r) (by
    rw [Shape.rowMajor_val_one, Shape.rowMajor_val_two]
    show r.val = r.val * 1 + 0
    omega)

/-- A column of running sums plus the lane sums of a [32, 2048] array recast as a column. -/
theorem accum_apply (acc : Vec Ideal S32x1 .f32) (v : FVec Ideal S32x2048 .f32) (hc1 : S32x1.ShapeCasts S32x1)
    (hc2 : S32.ShapeCasts S32x1) (h : S32x2048.Reduces [1] S32) (hφ : FKind.Formats .f32)
    (hacc : (0x00000000#32 : BitVec 32) = FKind.add.neutral .f32 hφ) (r : Fin 32) :
    addf (shapeCast S32x1 acc hc1) (shapeCast S32x1 (multiReduction .add [1] S32 v 0x00000000#32 h hφ hacc) hc2) (ix2 r 0)
      = acc (ix2 r 0) + ∑ l : Fin 2048, v (ix2 r l) := by
  show shapeCast S32x1 acc hc1 (ix2 r 0) + shapeCast S32x1 (multiReduction .add [1] S32 v 0x00000000#32 h hφ hacc) hc2 (ix2 r 0) = _
  rw [shapeCast_self, column_apply, laneSum_apply]

/-- The distance between the points of two blocks at row `r`, lane `l`. -/
theorem blockDist_apply (x y : FVec Ideal S32x2x2048 .f32) (hc : S32x2x2048.ShapeCasts S32x2x2048)
    (h : S32x2x2048.Reduces [1] S32x2048) (hφ : FKind.Formats .f32)
    (hacc : (0x00000000#32 : BitVec 32) = FKind.add.neutral .f32 hφ) (r : Fin 32) (l : Fin 2048) :
    sqrt (F := Ideal) (multiReduction .add [1] S32x2048
        (mulf (subf (shapeCast S32x2x2048 y hc) (shapeCast S32x2x2048 x hc)) (subf (shapeCast S32x2x2048 y hc) (shapeCast S32x2x2048 x hc)))
        0x00000000#32 h hφ hacc) (ix2 r l)
      = Ideal.sqrt (∑ c : Fin 2, (y (ix3 r c l) - x (ix3 r c l)) * (y (ix3 r c l) - x (ix3 r c l))) := by
  show Ideal.sqrt (multiReduction (F := Ideal) .add [1] S32x2048 _ 0x00000000#32 h hφ hacc (ix2 r l)) = _
  rw [coordSum_apply, shapeCast_self, shapeCast_self]
  rfl

/-- The first running sum after a point: what it held plus the tile's sum of distances between `y` and `x`. -/
theorem pay4_apply (x y : Vec Ideal S32x2x2048 .f32) (acc : Vec Ideal S32x1 .f32) (r : Fin 32) :
    k0_pay4 (F := Ideal) x y acc (ix2 r 0)
      = acc (ix2 r 0) + ∑ l : Fin 2048, Ideal.sqrt (∑ c : Fin 2, (y (ix3 r c l) - x (ix3 r c l)) * (y (ix3 r c l) - x (ix3 r c l))) := by
  unfold k0_pay4 k0_pay3
  exact (accum_apply acc _ _ _ _ _ _ r).trans (congrArg (acc (ix2 r 0) + ·) (Finset.sum_congr rfl fun l _ => blockDist_apply x y _ _ _ _ r l))

/-- The second running sum after a point, likewise. -/
theorem pay5_apply (x y : Vec Ideal S32x2x2048 .f32) (acc : Vec Ideal S32x1 .f32) (r : Fin 32) :
    k0_pay5 (F := Ideal) x y acc (ix2 r 0)
      = acc (ix2 r 0) + ∑ l : Fin 2048, Ideal.sqrt (∑ c : Fin 2, (y (ix3 r c l) - x (ix3 r c l)) * (y (ix3 r c l) - x (ix3 r c l))) := by
  unfold k0_pay5 k0_pay3
  exact (accum_apply acc _ _ _ _ _ _ r).trans (congrArg (acc (ix2 r 0) + ·) (Finset.sum_congr rfl fun l _ => blockDist_apply x y _ _ _ _ r l))

/-- The reset columns are zero. -/
theorem pay1_apply (y : S32x1.Idx) : k0_pay1 (F := Ideal) y = 0 := Ideal.ofBits_zero_f32
theorem pay2_apply (y : S32x1.Idx) : k0_pay2 (F := Ideal) y = 0 := Ideal.ofBits_zero_f32

end Cert.KernelIdeal.TileValue

end
-- ==== Proof.CaseValue.lean ====
/-
  What the body leaves in the two columns of running sums, case by case, for any float values.

  At a first tile (the reset taken) each column is stored as zeros, read back, and stored again with the tile's sum
  added: it ends at the tile's sum added to the zero column. At any later tile the one store adds the tile's sum to
  what the column held. In both cases the three input blocks are read whole.
-/
import proofs.«140975_j80900003987883_1_alg».proof.Proof.Gen.KernelIdeal.Frame
import Idealize.ShloMosaic.Lib.Pipeline.Value
import Idealize.ShloMosaic.Lib.Tactic

noncomputable section

namespace Cert.KernelIdeal.CaseValue

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile, first column: the held sums plus the tile's distances between the second and the first block. -/
theorem later_first (c : Dev nD) (i : grid0.Coords) (a2 : Memref sig .tc .vmem S32x2x2048 .f32) (h2 : a2.IsWhole) (a3 : Memref sig .tc .vmem S32x2x2048 .f32) (h3 : a3.IsWhole) (a4 : Memref sig .tc .vmem S32x2x2048 .f32) (h4 : a4.IsWhole) (a5 : Memref sig .tc .vmem S32x1 .f32) (h5 : a5.IsWhole) (a6 : Memref sig .tc .vmem S32x1 .f32) (h6 : a6.IsWhole) (hc : ¬cond0_0 i)
    (x0 x1 x2 : Vec F S32x2x2048 .f32) (xo3 xo4 : Vec F S32x1 .f32) :
    out0_B_3 c i a2 h2 a3 h3 a4 h4 a5 h5 a6 h6 hc x0 x1 x2 xo3 xo4 = k0_pay4 x0 x1 xo3 := by
  unfold out0_B_3
  rw [View.read_writes_eq_canon _ _ _ (cover0_B_3 c i a2 h2 a3 h3 a4 h4 a5 h5 a6 h6 hc x0 x1 x2 xo3 xo4)]
  unfold kernelRun0_B
  dsimp only
  rw [View.canon_unit_zero hz2]
  simp only [View.readAt_eq_ld, h2.read_unread, h3.read_unread, h5.read_unread, View.ld_unit_zero (S := S32x2x2048) hz3,
    View.ld_unit_zero (S := S32x1) hz2]

/-- A later tile, second column: the held sums plus the tile's distances between the third and the first block. -/
theorem later_second (c : Dev nD) (i : grid0.Coords) (a2 : Memref sig .tc .vmem S32x2x2048 .f32) (h2 : a2.IsWhole) (a3 : Memref sig .tc .vmem S32x2x2048 .f32) (h3 : a3.IsWhole) (a4 : Memref sig .tc .vmem S32x2x2048 .f32) (h4 : a4.IsWhole) (a5 : Memref sig .tc .vmem S32x1 .f32) (h5 : a5.IsWhole) (a6 : Memref sig .tc .vmem S32x1 .f32) (h6 : a6.IsWhole) (hc : ¬cond0_0 i)
    (x0 x1 x2 : Vec F S32x2x2048 .f32) (xo3 xo4 : Vec F S32x1 .f32) :
    out0_B_4 c i a2 h2 a3 h3 a4 h4 a5 h5 a6 h6 hc x0 x1 x2 xo3 xo4 = k0_pay5 x0 x2 xo4 := by
  unfold out0_B_4
  rw [View.read_writes_eq_canon _ _ _ (cover0_B_4 c i a2 h2 a3 h3 a4 h4 a5 h5 a6 h6 hc x0 x1 x2 xo3 xo4)]
  unfold kernelRun0_B
  dsimp only
  rw [View.canon_unit_zero hz2]
  simp only [View.readAt_eq_ld, h2.read_unread, h4.read_unread, h6.read_unread, View.ld_unit_zero (S := S32x2x2048) hz3,
    View.ld_unit_zero (S := S32x1) hz2]

/-- A first tile, first column: the zero column plus the tile's distances. -/
theorem reset_first (c : Dev nD) (i : grid0.Coords) (a2 : Memref sig .tc .vmem S32x2x2048 .f32) (h2 : a2.IsWhole) (a3 : Memref sig .tc .vmem S32x2x2048 .f32) (h3 : a3.IsWhole) (a4 : Memref sig .tc .vmem S32x2x2048 .f32) (h4 : a4.IsWhole) (a5 : Memref sig .tc .vmem S32x1 .f32) (h5 : a5.IsWhole) (a6 : Memref sig .tc .vmem S32x1 .f32) (h6 : a6.IsWhole) (hc : cond0_0 i)
    (x0 x1 x2 : Vec F S32x2x2048 .f32) :
    out0_A_3 c i a2 h2 a3 h3 a4 h4 a5 h5 a6 h6 hc x0 x1 x2 = k0_pay4 x0 x1 k0_pay1 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S32x1) hz2, View.readCov_unit_zero (S := S32x1) _ hz2]
  simp only [View.readAt_eq_ld, h2.read_unread, h3.read_unread, View.ld_unit_zero (S := S32x2x2048) hz3]

/-- A first tile, second column. -/
theorem reset_second (c : Dev nD) (i : grid0.Coords) (a2 : Memref sig .tc .vmem S32x2x2048 .f32) (h2 : a2.IsWhole) (a3 : Memref sig .tc .vmem S32x2x2048 .f32) (h3 : a3.IsWhole) (a4 : Memref sig .tc .vmem S32x2x2048 .f32) (h4 : a4.IsWhole) (a5 : Memref sig .tc .vmem S32x1 .f32) (h5 : a5.IsWhole) (a6 : Memref sig .tc .vmem S32x1 .f32) (h6 : a6.IsWhole) (hc : cond0_0 i)
    (x0 x1 x2 : Vec F S32x2x2048 .f32) :
    out0_A_4 c i a2 h2 a3 h3 a4 h4 a5 h5 a6 h6 hc x0 x1 x2 = k0_pay5 x0 x2 k0_pay2 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S32x1) hz2, View.readCov_unit_zero (S := S32x1) _ hz2]
  simp only [View.readAt_eq_ld, h2.read_unread, h4.read_unread, View.ld_unit_zero (S := S32x2x2048) hz3]

end Cert.KernelIdeal.CaseValue

end
-- ==== Proof.Accum.lean ====
/-
  The running sums, point by point. Grid point t = 50·i + j works on batches 32i … 32i+31 and on tile j of their
  points. At j = 0 the columns are reset, so after the point row r holds the tile's sum; at j > 0 the point adds its
  tile's sum to what point t − 1 left. By induction on the point, after point t row r of the first column holds
      ∑_{j' ≤ j} (tile j' sum of distances between the second and the first point set, batch 32i + r),
  and the second column the same with the third point set.
-/
import proofs.«140975_j80900003987883_1_alg».proof.Proof.BlockValue
import proofs.«140975_j80900003987883_1_alg».proof.Proof.TileValue
import proofs.«140975_j80900003987883_1_alg».proof.Proof.CaseValue

noncomputable section

namespace Cert.KernelIdeal.Accum

open Cert.KernelIdeal Cert.KernelIdeal.Gen Idealize.ShloMosaic Idealize.ShloMosaic.TcCoe Idealize.SL.Sem
open Idealize.ShloMosaic.ValueIdx PointDist
open Cert.KernelIdeal.BlockValue Cert.KernelIdeal.TileValue Cert.KernelIdeal.CaseValue

variable (m : (ℓ : Loc nD τ sig) → Buf (Elt Ideal) ℓ)

/-- The three point sets as launched. -/
abbrev setX (c : Dev nD) : S64x100000x2.Idx → Ideal .f32 := m ((c : Thread nD τ).loc main_arg0)
abbrev setY (c : Dev nD) : S64x100000x2.Idx → Ideal .f32 := m ((c : Thread nD τ).loc main_arg1)
abbrev setZ (c : Dev nD) : S64x100000x2.Idx → Ideal .f32 := m ((c : Thread nD τ).loc main_arg3)

/-- A point adds to row `r` of the first column its tile's sum of distances between the second and first set. -/
theorem point_first (c : Dev nD) (t : Fin cfg0.N) (acc : Vec Ideal S32x1 .f32) (r : Fin 32) :
    k0_pay4 (F := Ideal) (iblk m c 0 t) (iblk m c 1 t) acc (ix2 r 0)
      = acc (ix2 r 0) + tileSum (setX m c) (setY m c) (rowOf t.val t.isLt r) (t.val % 50) := by
  refine (pay4_apply (iblk m c 0 t) (iblk m c 1 t) acc r).trans ?_
  unfold tileSum distP
  refine congrArg (acc (ix2 r 0) + ·) (Finset.sum_congr rfl fun l _ => congrArg Ideal.sqrt (Finset.sum_congr rfl fun cc _ => ?_))
  rw [iblk0_apply, iblk1_apply]

/-- And to the second column that between the third and first set. -/
theorem point_second (c : Dev nD) (t : Fin cfg0.N) (acc : Vec Ideal S32x1 .f32) (r : Fin 32) :
    k0_pay5 (F := Ideal) (iblk m c 0 t) (iblk m c 2 t) acc (ix2 r 0)
      = acc (ix2 r 0) + tileSum (setX m c) (setZ m c) (rowOf t.val t.isLt r) (t.val % 50) := by
  refine (pay5_apply (iblk m c 0 t) (iblk m c 2 t) acc r).trans ?_
  unfold tileSum distP
  refine congrArg (acc (ix2 r 0) + ·) (Finset.sum_congr rfl fun l _ => congrArg Ideal.sqrt (Finset.sum_congr rfl fun cc _ => ?_))
  rw [iblk0_apply, iblk2_apply]

/-- After a first tile a row holds that tile's sums. -/
theorem step_reset (c : Dev nD) (t : Fin cfg0.N) (h0 : t.val % 50 = 0) (r : Fin 32) :
    (outsAt0 m c t.val t.isLt).1 (ix2 r 0) = tileSum (setX m c) (setY m c) (rowOf t.val t.isLt r) 0
    ∧ (outsAt0 m c t.val t.isLt).2 (ix2 r 0) = tileSum (setX m c) (setZ m c) (rowOf t.val t.isLt r) 0 := by
  have e := outsAt0_A m c t h0
  have e1 : (outsAt0 m c t.val t.isLt).1 = k0_pay4 (F := Ideal) (iblk m c 0 t) (iblk m c 1 t) (k0_pay1 (F := Ideal)) :=
    (congrArg Prod.fst e).trans (reset_first c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))
  have e2 : (outsAt0 m c t.val t.isLt).2 = k0_pay5 (F := Ideal) (iblk m c 0 t) (iblk m c 2 t) (k0_pay2 (F := Ideal)) :=
    (congrArg Prod.snd e).trans (reset_second c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))
  constructor
  · rw [e1, point_first, pay1_apply, zero_add, h0]
  · rw [e2, point_second, pay2_apply, zero_add, h0]

/-- After a later tile a row holds what the point before left plus the tile's sums. -/
theorem step_later (c : Dev nD) (t : Fin cfg0.N) (h0 : ¬t.val % 50 = 0) (r : Fin 32) :
    (outsAt0 m c t.val t.isLt).1 (ix2 r 0)
        = (outsAt0 m c (t.val - 1) (Nat.lt_of_le_of_lt (Nat.sub_le _ _) t.isLt)).1 (ix2 r 0)
          + tileSum (setX m c) (setY m c) (rowOf t.val t.isLt r) (t.val % 50)
    ∧ (outsAt0 m c t.val t.isLt).2 (ix2 r 0)
        = (outsAt0 m c (t.val - 1) (Nat.lt_of_le_of_lt (Nat.sub_le _ _) t.isLt)).2 (ix2 r 0)
          + tileSum (setX m c) (setZ m c) (rowOf t.val t.isLt r) (t.val % 50) := by
  have e := outsAt0_B m c t h0
  have e1 : (outsAt0 m c t.val t.isLt).1 = k0_pay4 (F := Ideal) (iblk m c 0 t) (iblk m c 1 t)
      (outsAt0 m c (t.val - 1) (Nat.lt_of_le_of_lt (Nat.sub_le _ _) t.isLt)).1 :=
    (congrArg Prod.fst e).trans (later_first c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2)
  have e2 : (outsAt0 m c t.val t.isLt).2 = k0_pay5 (F := Ideal) (iblk m c 0 t) (iblk m c 2 t)
      (outsAt0 m c (t.val - 1) (Nat.lt_of_le_of_lt (Nat.sub_le _ _) t.isLt)).2 :=
    (congrArg Prod.snd e).trans (later_second c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2)
  constructor
  · rw [e1, point_first]
  · rw [e2, point_second]

/-- THE RUNNING SUMS: after point `n`, row `r` of each column holds the sums of tiles 0 … n mod 50 of its batch. -/
theorem sums_eq (c : Dev nD) : ∀ (n : ℕ) (hn : n < cfg0.N) (r : Fin 32),
    (outsAt0 m c n hn).1 (ix2 r 0) = ∑ j ∈ Finset.range (n % 50 + 1), tileSum (setX m c) (setY m c) (rowOf n hn r) j
    ∧ (outsAt0 m c n hn).2 (ix2 r 0) = ∑ j ∈ Finset.range (n % 50 + 1), tileSum (setX m c) (setZ m c) (rowOf n hn r) j
  | 0, hn, r => by
    have h := step_reset m c ⟨0, hn⟩ rfl r
    refine ⟨h.1.trans ?_, h.2.trans ?_⟩ <;> exact (Finset.sum_range_one _).symm
  | n + 1, hn, r => by
    by_cases h0 : (n + 1) % 50 = 0
    · have h := step_reset m c ⟨n + 1, hn⟩ h0 r
      rw [h0]
      refine ⟨h.1.trans ?_, h.2.trans ?_⟩ <;> exact (Finset.sum_range_one _).symm
    · have h := step_later m c ⟨n + 1, hn⟩ h0 r
      have ih := sums_eq c n (Nat.lt_of_succ_lt hn) r
      have hq : rowOf n (Nat.lt_of_succ_lt hn) r = rowOf (n + 1) hn r :=
        Fin.ext (by show 32 * (n / 50) + r.val = 32 * ((n + 1) / 50) + r.val; omega)
      have hm : (n + 1) % 50 = n % 50 + 1 := by omega
      constructor
      · refine h.1.trans ?_
        show (outsAt0 m c n _).1 (ix2 r 0) + tileSum (setX m c) (setY m c) (rowOf (n + 1) hn r) ((n + 1) % 50) = _
        rw [ih.1, hq, hm, Finset.sum_range_succ _ (n % 50 + 1)]
      · refine h.2.trans ?_
        show (outsAt0 m c n _).2 (ix2 r 0) + tileSum (setX m c) (setZ m c) (rowOf (n + 1) hn r) ((n + 1) % 50) = _
        rw [ih.2, hq, hm, Finset.sum_range_succ _ (n % 50 + 1)]

end Cert.KernelIdeal.Accum

end
-- ==== Proof.Final.lean ====
/-
  The two result arrays, and the kernel's result. The columns of running sums are written back after the last tile
  of each half of the batches (points 49 and 99), when row r holds all fifty tile sums of batch 32i + r: the batch's
  sum of distances. The two blocks written back tile the 64 rows, so each result array ends holding, in row b, the
  sum of distances of batch b. The operations after the region recast the two columns as vectors and apply the closing
  arithmetic.
-/
import proofs.«140975_j80900003987883_1_alg».proof.Proof.Accum
import proofs.«140975_j80900003987883_1_alg».proof.Proof.Tail
import Idealize.ShloMosaic.Lib.Pipeline.Value
import Idealize.ShloMosaic.Lib.StableHlo.Run
import Idealize.ShloMosaic.Lib.Tactic

noncomputable section

namespace Cert.KernelIdeal.Final

open Cert.KernelIdeal Cert.KernelIdeal.Gen Idealize.ShloMosaic Idealize.ShloMosaic.TcCoe Idealize.SL.Sem
open Idealize.ShloMosaic.Tactic Idealize.ShloMosaic.StableHlo Idealize.ShloMosaic.ValueIdx PointDist
open Idealize.ShloMosaic.Pipeline (Dat)
open Cert.KernelIdeal.BlockValue Cert.KernelIdeal.Accum

variable (m : (ℓ : Loc nD τ sig) → Buf (Elt Ideal) ℓ) (ρ : Dev nD → PrngReg)

/-- A column of 64 entries: row `b` the sum of distances of batch `b`. -/
def batchSums (X Y : S64x100000x2.Idx → Ideal .f32) : S64x1.Idx → Ideal .f32 :=
  fun i => distSum X Y ⟨(i 0).val, idx2_lt0 i⟩

/-- A block of a result array, read at an entry, is the array at the entry's place (for any array `G`). -/
theorem read_blk3 (G : S64x1.Idx → Ideal .f32) (t : Fin cfg0.N) (j : ((cfg0.win 3).xblock (grid0.coords t)).Idx) :
    ((cfg0.win 3).blk t).view.read (Elt Ideal) G j = G (((cfg0.win 3).blk t).view.emb j) := by
  rw [View.read_apply]; rfl
theorem read_blk4 (G : S64x1.Idx → Ideal .f32) (t : Fin cfg0.N) (j : ((cfg0.win 4).xblock (grid0.coords t)).Idx) :
    ((cfg0.win 4).blk t).view.read (Elt Ideal) G j = G (((cfg0.win 4).blk t).view.emb j) := by
  rw [View.read_apply]; rfl

/-- What a write-back writes: the block of `batchSums` at the point's rows. -/
theorem flushed_first (c : Dev nD) (t : Fin cfg0.N) (hf : (cfg0.win 3).flush t = true) :
    (dats m 0 c).flushed 3 t = ((cfg0.win 3).blk t).view.read (Elt Ideal) (batchSums (setX m c) (setY m c)) := by
  have hN : cfg0.N = 100 := N_0
  have ht : t.val < 100 := lt_of_lt_of_eq t.isLt hN
  have h49 : t.val % 50 = 49 := (flush0_3 t).mp hf
  obtain ⟨e0, e1⟩ := idx_out3 t
  show (cfg0.win 3).cut (grid0.coords t) ((dats m 0 c).after 3 t) = _
  rw [after0_3]
  funext j
  rw [read_blk3]
  have hj0 : (j 0).val < 32 := (j 0).isLt
  have hj1 : (j 1).val < 1 := (j 1).isLt
  have hx : (cfg0.win 3).xinj (grid0.coords t) j = ix2 (⟨(j 0).val, hj0⟩ : Fin 32) (0 : Fin 1) :=
    funext fun a => Fin.ext (by match a with | ⟨0, _⟩ => rfl | ⟨1, _⟩ => show (j 1).val = 0; omega)
  show (outsAt0 m c t.val t.isLt).1 ((cfg0.win 3).xinj (grid0.coords t) j) = _
  rw [hx, (sums_eq m c t.val t.isLt ⟨(j 0).val, hj0⟩).1, h49]
  refine (tiles_sum (setX m c) (setY m c) (rowOf t.val t.isLt ⟨(j 0).val, hj0⟩)).trans ?_
  unfold batchSums
  refine congrArg (distSum (setX m c) (setY m c)) (Fin.ext ?_)
  show 32 * (t.val / 50) + (j 0).val = win0_3.index t 0 * 32 + 1 * (j 0).val
  rw [e0]; omega
theorem flushed_second (c : Dev nD) (t : Fin cfg0.N) (hf : (cfg0.win 4).flush t = true) :
    (dats m 0 c).flushed 4 t = ((cfg0.win 4).blk t).view.read (Elt Ideal) (batchSums (setX m c) (setZ m c)) := by
  have hN : cfg0.N = 100 := N_0
  have ht : t.val < 100 := lt_of_lt_of_eq t.isLt hN
  have h49 : t.val % 50 = 49 := (flush0_4 t).mp hf
  obtain ⟨e0, e1⟩ := idx_out4 t
  show (cfg0.win 4).cut (grid0.coords t) ((dats m 0 c).after 4 t) = _
  rw [after0_4]
  funext j
  rw [read_blk4]
  have hj0 : (j 0).val < 32 := (j 0).isLt
  have hj1 : (j 1).val < 1 := (j 1).isLt
  have hx : (cfg0.win 4).xinj (grid0.coords t) j = ix2 (⟨(j 0).val, hj0⟩ : Fin 32) (0 : Fin 1) :=
    funext fun a => Fin.ext (by match a with | ⟨0, _⟩ => rfl | ⟨1, _⟩ => show (j 1).val = 0; omega)
  show (outsAt0 m c t.val t.isLt).2 ((cfg0.win 4).xinj (grid0.coords t) j) = _
  rw [hx, (sums_eq m c t.val t.isLt ⟨(j 0).val, hj0⟩).2, h49]
  refine (tiles_sum (setX m c) (setZ m c) (rowOf t.val t.isLt ⟨(j 0).val, hj0⟩)).trans ?_
  unfold batchSums
  refine congrArg (distSum (setX m c) (setZ m c)) (Fin.ext ?_)
  show 32 * (t.val / 50) + (j 0).val = win0_4.index t 0 * 32 + 1 * (j 0).val
  rw [e0]; omega

/-- An index of a result array lies in point t's block iff each coordinate is in the block's range. -/
theorem mem_blk3 (t : Fin cfg0.N) (i : S64x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v6_0).slice (win0_3.rect t)).set ↔ _
  rw [View.set_slice_whole, Rect.mem_set_unit]
  exact Iff.rfl
theorem mem_blk4 (t : Fin cfg0.N) (i : S64x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v6_1).slice (win0_4.rect t)).set ↔ _
  rw [View.set_slice_whole, Rect.mem_set_unit]
  exact Iff.rfl

/-- Row b lies in the block written back after the last tile of its half. -/
theorem cover3 (i : S64x1.Idx) : ∃ t : Fin cfg0.N, (cfg0.win 3).flush t = true ∧ i ∈ ((cfg0.win 3).blk t).view.set := by
  have hN : cfg0.N = 100 := N_0
  have hi0 : (i 0).val < 64 := (i 0).isLt
  have hi1 : (i 1).val < 1 := (i 1).isLt
  have hlt : 50 * ((i 0).val / 32) + 49 < cfg0.N := by omega
  obtain ⟨e0, e1⟩ := idx_out3 ⟨50 * ((i 0).val / 32) + 49, hlt⟩
  refine ⟨⟨50 * ((i 0).val / 32) + 49, hlt⟩, (flush0_3 _).mpr (by show (50 * ((i 0).val / 32) + 49) % 50 = 49; omega), ?_⟩
  rw [mem_blk3]
  intro a
  match a with
  | ⟨0, _⟩ =>
    show win0_3.index ⟨50 * ((i 0).val / 32) + 49, hlt⟩ 0 * 32 ≤ (i 0).val
      ∧ (i 0).val < win0_3.index ⟨50 * ((i 0).val / 32) + 49, hlt⟩ 0 * 32 + 32
    rw [e0]
    show (50 * ((i 0).val / 32) + 49) / 50 * 32 ≤ (i 0).val ∧ (i 0).val < (50 * ((i 0).val / 32) + 49) / 50 * 32 + 32
    omega
  | ⟨1, _⟩ =>
    show win0_3.index ⟨50 * ((i 0).val / 32) + 49, hlt⟩ 1 * 1 ≤ (i 1).val
      ∧ (i 1).val < win0_3.index ⟨50 * ((i 0).val / 32) + 49, hlt⟩ 1 * 1 + 1
    rw [e1]
    omega
theorem cover4 (i : S64x1.Idx) : ∃ t : Fin cfg0.N, (cfg0.win 4).flush t = true ∧ i ∈ ((cfg0.win 4).blk t).view.set := by
  have hN : cfg0.N = 100 := N_0
  have hi0 : (i 0).val < 64 := (i 0).isLt
  have hi1 : (i 1).val < 1 := (i 1).isLt
  have hlt : 50 * ((i 0).val / 32) + 49 < cfg0.N := by omega
  obtain ⟨e0, e1⟩ := idx_out4 ⟨50 * ((i 0).val / 32) + 49, hlt⟩
  refine ⟨⟨50 * ((i 0).val / 32) + 49, hlt⟩, (flush0_4 _).mpr (by show (50 * ((i 0).val / 32) + 49) % 50 = 49; omega), ?_⟩
  rw [mem_blk4]
  intro a
  match a with
  | ⟨0, _⟩ =>
    show win0_4.index ⟨50 * ((i 0).val / 32) + 49, hlt⟩ 0 * 32 ≤ (i 0).val
      ∧ (i 0).val < win0_4.index ⟨50 * ((i 0).val / 32) + 49, hlt⟩ 0 * 32 + 32
    rw [e0]
    show (50 * ((i 0).val / 32) + 49) / 50 * 32 ≤ (i 0).val ∧ (i 0).val < (50 * ((i 0).val / 32) + 49) / 50 * 32 + 32
    omega
  | ⟨1, _⟩ =>
    show win0_4.index ⟨50 * ((i 0).val / 32) + 49, hlt⟩ 1 * 1 ≤ (i 1).val
      ∧ (i 1).val < win0_4.index ⟨50 * ((i 0).val / 32) + 49, hlt⟩ 1 * 1 + 1
    rw [e1]
    omega

/-- THE RESULT ARRAYS after the region. -/
theorem final_first (c : Dev nD) : (dats m 0 c).arrAt 3 cfg0.N = batchSums (setX m c) (setY m c) :=
  (dats m 0 c).arrAt_eq_of_cover 3 (batchSums (setX m c) (setY m c)) (flushed_first m c) cover3
theorem final_second (c : Dev nD) : (dats m 0 c).arrAt 4 cfg0.N = batchSums (setX m c) (setZ m c) :=
  (dats m 0 c).arrAt_eq_of_cover 4 (batchSums (setX m c) (setZ m c)) (flushed_second m c) cover4

set_option maxRecDepth 8192 in
set_option maxHeartbeats 2000000 in
/-- The operations after the region, on any contents of the buffers: the closing arithmetic of the two result
    columns recast as vectors. -/
theorem tail_read (W : Valuation τ sig (Elt Ideal)) :
    StableHlo.after (List.flatten [hostOps1, hostOps1_1, hostOps1_2, hostOps1_3, hostOps1_4]) W (Proc.devRef .tc main_v35)
      = closing (F := Ideal) (shapeCast S64 (W (Proc.devRef .tc main_v6_0)) shapeCasts_S64x1_S64)
          (shapeCast S64 (W (Proc.devRef .tc main_v6_1)) shapeCasts_S64x1_S64) := by
  simp only [hostOps1, hostOps1_1, hostOps1_2, hostOps1_3, hostOps1_4, List.flatten_cons, List.flatten_nil, List.append_nil,
    List.cons_append, List.nil_append]
  after_results_simp
  rfl

/-- The column of batch sums recast as a vector: entry `b` the sum of distances of batch `b`. -/
theorem column_vec (X Y : S64x100000x2.Idx → Ideal .f32) :
    shapeCast S64 (batchSums X Y) shapeCasts_S64x1_S64 = fun i => distSum X Y (i 0) := by
  funext i
  obtain ⟨b, rfl⟩ : ∃ b : Fin 64, i = ix1 b := ⟨i 0, eq_ix1 i⟩
  refine (shapeCast_apply (batchSums X Y) shapeCasts_S64x1_S64 (ix1 b) (ix2 b (0 : Fin 1)) ?_).trans rfl
  rw [Shape.rowMajor_val_one, Shape.rowMajor_val_two]
  show b.val * 1 + 0 = b.val
  omega

/-- The kernel's result: the closing arithmetic of the two vectors of batch sums. -/
theorem result_eq (c : Dev nD) :
    Pipeline.afterTail₀ cfgs (dats m) 0 (V0 m) [hostOps1, hostOps1_1, hostOps1_2, hostOps1_3, hostOps1_4] c main_v35
      = closing (F := Ideal) (fun i => distSum (setX m c) (setY m c) (i 0)) (fun i => distSum (setX m c) (setZ m c) (i 0)) := by
  unfold Pipeline.afterTail₀
  refine (tail_read _).trans ?_
  have h3 : Pipeline.withArrays (cfgs 0).spec c (V0 m c) (fun w => (dats m 0 c).arrAt w (cfgs 0).N) (Proc.devRef .tc main_v6_0)
      = batchSums (setX m c) (setY m c) :=
    (Pipeline.withArrays_arr spec0 launch0.win.arr_inj c _ _ 3).trans (final_first m c)
  have h4 : Pipeline.withArrays (cfgs 0).spec c (V0 m c) (fun w => (dats m 0 c).arrAt w (cfgs 0).N) (Proc.devRef .tc main_v6_1)
      = batchSums (setX m c) (setZ m c) :=
    (Pipeline.withArrays_arr spec0 launch0.win.arr_inj c _ _ 4).trans (final_second m c)
  exact congrArg₂ (closing (F := Ideal))
    ((congrArg (shapeCast S64 · shapeCasts_S64x1_S64) h3).trans (column_vec _ _))
    ((congrArg (shapeCast S64 · shapeCasts_S64x1_S64) h4).trans (column_vec _ _))

/-- THE RUN, READ: every weakly fair execution ends with the result at the closing arithmetic of the batch sums of
    the launch contents, and the four arguments as launched. -/
theorem run : θ_run defs (onTc (τ := τ) (main (F := Ideal))) ⟨m, fun _ => 0, ρ⟩ fun r => ∀ c : Dev nD,
      r.2.mem ((c.tc : Thread nD τ).loc main_v35)
        = closing (F := Ideal) (fun i => distSum (setX m c) (setY m c) (i 0)) (fun i => distSum (setX m c) (setZ m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.KernelIdeal.Final

end
-- ==== Proof.lean ====
/-
  The kernel and the reference compute the same number.

  Three sets X, Y, Z of 100000 planar points in each of 64 batches. Both programs form, per batch, the sum over the
  points of the Euclidean distance between Y and X, and between Z and X, and apply the same closing arithmetic to the
  two vectors of 64 sums (Proof/Tail.lean). The reference sums the 100000 distances directly (Proof/RefSide.lean).
  The kernel lays each set out as (batch, coordinate, point) padded with zero points to 50 tiles of 2048, walks a grid
  of 2 × 50 points, and accumulates tile sums into two columns that are reset at the first tile and written back after
  the last (Proof/BlockValue.lean, TileValue.lean, CaseValue.lean, Accum.lean, Final.lean). A zero point pair is at
  distance 0 and addition of extended reals is commutative and associative, so fifty tile sums are the batch's sum
  (Proof/Spec.lean); no entry has to be finite, and the precondition is not used. The idealization rewrote nothing.
-/
import proofs.«140975_j80900003987883_1_alg».proof.Defs
import proofs.«140975_j80900003987883_1_alg».proof.Proof.Gen.Kernel
import proofs.«140975_j80900003987883_1_alg».proof.Proof.Gen.Kernel.Frame
import proofs.«140975_j80900003987883_1_alg».proof.Proof.Gen.KernelIdeal
import proofs.«140975_j80900003987883_1_alg».proof.Proof.Gen.KernelIdeal.Frame
import proofs.«140975_j80900003987883_1_alg».proof.Proof.Gen.ReferenceIdeal
import proofs.«140975_j80900003987883_1_alg».proof.Proof.Gen.ReferenceIdeal.Run
import proofs.«140975_j80900003987883_1_alg».proof.Proof.Gen.ReferenceIdeal.Read
import proofs.«140975_j80900003987883_1_alg».proof.Proof.Gen.Pre_finite_inputs
import proofs.«140975_j80900003987883_1_alg».proof.Proof.RefSide
import proofs.«140975_j80900003987883_1_alg».proof.Proof.Final
import Idealize.ShloMosaic.Adequacy
import Idealize.ShloMosaic.Init

noncomputable section

namespace Cert.Proof

open Idealize.ShloMosaic Idealize.ShloMosaic.TcCoe Idealize.SL.Sem PointDist

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the closing arithmetic of the same two vectors of batch sums, of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefSide.result_eq, (hagree c).1, (hagree c).2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
